-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x8x8x8 : Shape := ⟨5, ![2048, 64, 8, 8, 8]⟩
abbrev S_ : Shape := ⟨0, ![]⟩

class Facts : Prop where
  bcast_S_S2048x64x8x8x8 : S_.BroadcastsInDim S2048x64x8x8x8 (![] : Fin 0 → Fin S2048x64x8x8x8.rank)
  reducesTo_S2048x64x8x8x8_S_d0_1_2_3_4 : S2048x64x8x8x8.ReducesTo [0, 1, 2, 3, 4] S_
  h_S_ : 0 < S_.numel

variable [Facts]

def fn {F : FTy → Type} [FloatOps F] (main_arg0 : FVec F S2048x64x8x8x8 .f32) : IVec S_ 1 :=
  let main_v0 : FVec F S2048x64x8x8x8 .f32 := Host.absf main_arg0
  let main_cst : FVec F S_ .f32 := constant S_ .f32 0x7F800000#32
  let main_v1 : FVec F S2048x64x8x8x8 .f32 := broadcastInDim S2048x64x8x8x8 ![] bcast_S_S2048x64x8x8x8 main_cst
  let main_v2 : IVec S2048x64x8x8x8 1 := cmpf .olt main_v0 main_v1
  let main_c : IVec S_ 1 := constantI S_ 1 1#1
  let main_v3 : IVec S_ 1 := (fun x v => Host.reduce IntOp.andi x v reducesTo_S2048x64x8x8x8_S_d0_1_2_3_4 h_S_) main_v2 main_c
  main_v3
-- ==== Kernel.lean ====
abbrev S2048x64x8x8x8 : Shape := ⟨5, ![2048, 64, 8, 8, 8]⟩
abbrev S2048x64x512 : Shape := ⟨3, ![2048, 64, 512]⟩
abbrev S4x64x8x8x8x512 : Shape := ⟨6, ![4, 64, 8, 8, 8, 512]⟩
abbrev S64x32x512 : Shape := ⟨3, ![64, 32, 512]⟩
abbrev S1x32x1x8x8x512 : Shape := ⟨6, ![1, 32, 1, 8, 8, 512]⟩
abbrev S8x8x32x8x8x8 : Shape := ⟨6, ![8, 8, 32, 8, 8, 8]⟩
abbrev S32x8x8x8x8x8 : Shape := ⟨6, ![32, 8, 8, 8, 8, 8]⟩
abbrev S4x64x64x64x64 : Shape := ⟨5, ![4, 64, 64, 64, 64]⟩

abbrev nBuf : Space → Nat
  | .hbm => 4
  | .vmem => 4
  | .smem => 0
  | _ => 0

abbrev bufTy : (tb : Table) → Fin (tcTables nBuf tb) → BufTy
  | .hbm, ⟨0, _⟩ => ⟨S2048x64x8x8x8, .f32⟩
  | .hbm, ⟨1, _⟩ => ⟨S2048x64x512, .f32⟩
  | .hbm, ⟨2, _⟩ => ⟨S4x64x8x8x8x512, .f32⟩
  | .hbm, ⟨3, _⟩ => ⟨S4x64x64x64x64, .f32⟩
  | .local _ .vmem, ⟨0, _⟩ => ⟨S64x32x512, .f32⟩
  | .local _ .vmem, ⟨1, _⟩ => ⟨S64x32x512, .f32⟩
  | .local _ .vmem, ⟨2, _⟩ => ⟨S1x32x1x8x8x512, .f32⟩
  | .local _ .vmem, ⟨3, _⟩ => ⟨S1x32x1x8x8x512, .f32⟩
  | _, _ => ⟨S2048x64x8x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg2.toNat, arg1.toNat, c0_i32.toNat, c0_i32_0.toNat, c0_i32_1.toNat]

abbrev stage0_0 : Fin 2 → Memref sig .tc .vmem S64x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x1x8x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  shapeCasts_S2048x64x8x8x8_S2048x64x512 : S2048x64x8x8x8.ShapeCasts S2048x64x512
  inb_S64x32x512_S64x32x512_0_0_0 : ∀ a, (![0, 0, 0] : Fin 3 → Nat) a + S64x32x512.size a ≤ S64x32x512.size a
  h_S64x32x512 : 0 < S64x32x512.numel
  shapeCasts_S64x32x512_S64x32x512 : S64x32x512.ShapeCasts S64x32x512
  shapeCasts_S64x32x512_S8x8x32x8x8x8 : S64x32x512.ShapeCasts S8x8x32x8x8x8
  transposes_S8x8x32x8x8x8_p2_3_0_4_1_5_S32x8x8x8x8x8 : S8x8x32x8x8x8.Transposes [2, 3, 0, 4, 1, 5] S32x8x8x8x8x8
  shapeCasts_S32x8x8x8x8x8_S1x32x1x8x8x512 : S32x8x8x8x8x8.ShapeCasts S1x32x1x8x8x512
  inb_S1x32x1x8x8x512_S1x32x1x8x8x512_0_0_0_0_0_0 : ∀ a, (![0, 0, 0, 0, 0, 0] : Fin 6 → Nat) a + S1x32x1x8x8x512.size a ≤ S1x32x1x8x8x512.size a
  h_S1x32x1x8x8x512 : 0 < S1x32x1x8x8x512.numel
  shapeCasts_S4x64x8x8x8x512_S4x64x64x64x64 : S4x64x8x8x8x512.ShapeCasts S4x64x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x512.size a ≤ S2048x64x512.size a
  hwx0_0 : ∀ i : grid0.Coords, EltTy.bits .f32 = 32 ∨ (Rect.block (s := S2048x64x512) S64x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x1x8x8x512.size a ≤ S4x64x8x8x8x512.size a
  hwx0_1 : ∀ i : grid0.Coords, EltTy.bits .f32 = 32 ∨ (Rect.block (s := S4x64x8x8x8x512) S1x32x1x8x8x512.size (cc0_transform_1 i) (hinb0_1 i)).WholeWords (EltTy.packing .f32)

variable [Facts₀]

abbrev win0_0 : Pipeline.Window sig grid0 :=
  Pipeline.Window.ofSpec (Memref.whole main_v0) S64x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x1x8x8x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x64x8x8x8 : Shape := ⟨5, ![2048, 64, 8, 8, 8]⟩
abbrev S4x8x8x8x64x8x8x8 : Shape := ⟨8, ![4, 8, 8, 8, 64, 8, 8, 8]⟩
abbrev S4x64x8x8x8x8x8x8 : Shape := ⟨8, ![4, 64, 8, 8, 8, 8, 8, 8]⟩
abbrev S4x64x64x64x64 : Shape := ⟨5, ![4, 64, 64, 64, 64]⟩

abbrev nBuf : Space → Nat
  | .hbm => 4
  | .vmem => 0
  | .smem => 0
  | _ => 0

abbrev bufTy : (tb : Table) → Fin (tcTables nBuf tb) → BufTy
  | .hbm, ⟨0, _⟩ => ⟨S2048x64x8x8x8, .f32⟩
  | .hbm, ⟨1, _⟩ => ⟨S4x8x8x8x64x8x8x8, .f32⟩
  | .hbm, ⟨2, _⟩ => ⟨S4x64x8x8x8x8x8x8, .f32⟩
  | .hbm, ⟨3, _⟩ => ⟨S4x64x64x64x64, .f32⟩
  | _, _ => ⟨S2048x64x8x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S2048x64x8x8x8_S4x8x8x8x64x8x8x8 : S2048x64x8x8x8.ShapeCasts S4x8x8x8x64x8x8x8
  transposes_S4x8x8x8x64x8x8x8_S4x64x8x8x8x8x8x8_0_4_1_5_2_6_3_7 : S4x8x8x8x64x8x8x8.Transposes [0, 4, 1, 5, 2, 6, 3, 7] S4x64x8x8x8x8x8x8
  shapeCasts_S4x64x8x8x8x8x8x8_S4x64x64x64x64 : S4x64x8x8x8x8x8x8.ShapeCasts S4x64x64x64x64

variable [Facts₀]

class Facts : Prop extends Facts₀ where

variable [Facts]
-- ==== Proof.LibRank8.lean ====
/-
  Rank-8 indices by coordinates, for any sizes: `ix8` builds an index of a rank-8 shape from its eight
  coordinates, `eq_ix8` says every rank-8 index is of that form, and `rowMajor_val_eight` writes its row-major
  position as one Horner sum of products (the last axis varies fastest, so the coordinates are folded left to right,
  each partial sum multiplied by the next axis' size). A reshape preserves row-major positions, so a reshape to or
  from a rank-8 shape is read at an index by equating two such sums, which are linear once the sizes are literals.
-/
import Idealize.ShloMosaic.Lib.ValueIdxRank6

namespace Cert.Lib.Rank8

open Idealize.ShloMosaic

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
            + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 {n0 n1 n2 n3 n4 n5 n6 n7 : Nat} (a : Fin n0) (b : Fin n1) (c : Fin n2) (d : Fin n3) (e : Fin n4)
    (f : Fin n5) (g : Fin n6) (h : Fin n7) : (⟨8, ![n0, n1, n2, n3, n4, n5, n6, n7]⟩ : Shape).Idx :=
  fun k => match k with
    | ⟨0, _⟩ => a | ⟨1, _⟩ => b | ⟨2, _⟩ => c | ⟨3, _⟩ => d | ⟨4, _⟩ => e | ⟨5, _⟩ => f | ⟨6, _⟩ => g | ⟨7, _⟩ => h

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl

end Cert.Lib.Rank8
-- ==== Proof.Layouts.lean ====
/-
  Each reshape and transpose of the two programs, read at an index given by coordinates.

  A reshape keeps every element's row-major position, so its value at an index is the operand at the index with the
  same position; at literal sizes the two positions are linear expressions of the coordinates, with the quotients
  and remainders by 8, 64 that split or merge an axis. A transpose reads the operand at the permuted coordinates.
  Stated for any element type: none of this looks at the values.
-/
import Idealize.ShloMosaic.Lib.Pipeline.Value
import Idealize.ShloMosaic.Lib.ValueIdxRank6
import proofs.«182161_j24824910970985_2_alg».proof.Proof.LibRank8

namespace Cert.Fold.Layouts

open Idealize.ShloMosaic Idealize.ShloMosaic.ValueIdx Cert.Lib.Rank8

variable {α : Type}

/-! ## The tiled computation's block: `[64, 32, 512] → [8, 8, 32, 8, 8, 8] → [32, 8, 8, 8, 8, 8] → [1, 32, 1, 8, 8, 512]` -/

/-- Splitting a block's 64 rows into `(p2, p3)` and its 512 lanes into `(e1, e2, e3)`. -/
theorem splitBlock_apply (x : (⟨3, ![64, 32, 512]⟩ : Shape).Idx → α)
    (h : (⟨3, ![64, 32, 512]⟩ : Shape).ShapeCasts ⟨6, ![8, 8, 32, 8, 8, 8]⟩)
    (p2 p3 : Fin 8) (ct : Fin 32) (e1 e2 e3 : Fin 8) :
    shapeCast ⟨6, ![8, 8, 32, 8, 8, 8]⟩ x h (ix6 p2 p3 ct e1 e2 e3)
      = x (ix3 (⟨p2.val * 8 + p3.val, by omega⟩ : Fin 64) ct (⟨e1.val * 64 + (e2.val * 8 + e3.val), by omega⟩ : Fin 512)) :=
  shapeCast_apply x h _ _ (by
    rw [Shape.rowMajor_val_three, Shape.rowMajor_val_six]
    show ((p2.val * 8 + p3.val) * 32 + ct.val) * 512 + (e1.val * 64 + (e2.val * 8 + e3.val))
      = ((((p2.val * 8 + p3.val) * 32 + ct.val) * 8 + e1.val) * 8 + e2.val) * 8 + e3.val
    omega)

/-- The block's transpose `(p2, p3, ct, e1, e2, e3) ↦ (ct, e1, p2, e2, p3, e3)`. -/
theorem swapBlock_apply (x : (⟨6, ![8, 8, 32, 8, 8, 8]⟩ : Shape).Idx → α)
    (h : (⟨6, ![8, 8, 32, 8, 8, 8]⟩ : Shape).Transposes [2, 3, 0, 4, 1, 5] ⟨6, ![32, 8, 8, 8, 8, 8]⟩)
    (ct : Fin 32) (e1 p2 e2 p3 e3 : Fin 8) :
    transpose ⟨6, ![32, 8, 8, 8, 8, 8]⟩ [2, 3, 0, 4, 1, 5] x h (ix6 ct e1 p2 e2 p3 e3) = x (ix6 p2 p3 ct e1 e2 e3) :=
  transpose_apply _ x h _ _ fun b => match b with
    | ⟨0, _⟩ => rfl | ⟨1, _⟩ => rfl | ⟨2, _⟩ => rfl | ⟨3, _⟩ => rfl | ⟨4, _⟩ => rfl | ⟨5, _⟩ => rfl

/-- Merging `(e2, p3, e3)` into one lane axis of 512, with two unit axes added. -/
theorem mergeLanes_apply (x : (⟨6, ![32, 8, 8, 8, 8, 8]⟩ : Shape).Idx → α)
    (h : (⟨6, ![32, 8, 8, 8, 8, 8]⟩ : Shape).ShapeCasts ⟨6, ![1, 32, 1, 8, 8, 512]⟩)
    (u0 : Fin 1) (ct : Fin 32) (u1 : Fin 1) (e1 p2 : Fin 8) (L : Fin 512) :
    shapeCast ⟨6, ![1, 32, 1, 8, 8, 512]⟩ x h (ix6 u0 ct u1 e1 p2 L)
      = x (ix6 ct e1 p2 (⟨L.val / 64, by omega⟩ : Fin 8) (⟨L.val / 8 % 8, by omega⟩ : Fin 8) (⟨L.val % 8, by omega⟩ : Fin 8)) :=
  shapeCast_apply x h _ _ (by
    rw [Shape.rowMajor_val_six, Shape.rowMajor_val_six]
    show ((((ct.val * 8 + e1.val) * 8 + p2.val) * 8 + L.val / 64) * 8 + L.val / 8 % 8) * 8 + L.val % 8
      = ((((u0.val * 32 + ct.val) * 1 + u1.val) * 8 + e1.val) * 8 + p2.val) * 512 + L.val
    omega)

/-! ## Around the tiled computation: `[2048, 64, 8, 8, 8] → [2048, 64, 512]` and `[4, 64, 8, 8, 8, 512] → [4, 64, 64, 64, 64]` -/

/-- Flattening each patch's voxels to one axis. -/
theorem flattenVoxels_apply (x : (⟨5, ![2048, 64, 8, 8, 8]⟩ : Shape).Idx → α)
    (h : (⟨5, ![2048, 64, 8, 8, 8]⟩ : Shape).ShapeCasts ⟨3, ![2048, 64, 512]⟩)
    (n : Fin 2048) (ch : Fin 64) (l : Fin 512) :
    shapeCast ⟨3, ![2048, 64, 512]⟩ x h (ix3 n ch l)
      = x (ix5 n ch (⟨l.val / 64, by omega⟩ : Fin 8) (⟨l.val / 8 % 8, by omega⟩ : Fin 8) (⟨l.val % 8, by omega⟩ : Fin 8)) :=
  shapeCast_apply x h _ _ (by
    rw [Shape.rowMajor_val_five, Shape.rowMajor_val_three]
    show (((n.val * 64 + ch.val) * 8 + l.val / 64) * 8 + l.val / 8 % 8) * 8 + l.val % 8
      = (n.val * 64 + ch.val) * 512 + l.val
    omega)

/-- Merging the staged layout's `(p1, e1)`, `(p2, e2)`, `(p3, e3)` into the volume's three spatial axes. -/
theorem mergeStaged_apply (y : (⟨6, ![4, 64, 8, 8, 8, 512]⟩ : Shape).Idx → α)
    (h : (⟨6, ![4, 64, 8, 8, 8, 512]⟩ : Shape).ShapeCasts ⟨5, ![4, 64, 64, 64, 64]⟩)
    (b : Fin 4) (ch : Fin 64) (u v w : Fin 64) :
    shapeCast ⟨5, ![4, 64, 64, 64, 64]⟩ y h (ix5 b ch u v w)
      = y (ix6 b ch (⟨u.val / 8, by omega⟩ : Fin 8) (⟨u.val % 8, by omega⟩ : Fin 8) (⟨v.val / 8, by omega⟩ : Fin 8)
            (⟨v.val % 8 * 64 + w.val, by omega⟩ : Fin 512)) :=
  shapeCast_apply y h _ _ (by
    rw [Shape.rowMajor_val_six, Shape.rowMajor_val_five]
    show ((((b.val * 64 + ch.val) * 8 + u.val / 8) * 8 + u.val % 8) * 8 + v.val / 8) * 512 + (v.val % 8 * 64 + w.val)
      = (((b.val * 64 + ch.val) * 64 + u.val) * 64 + v.val) * 64 + w.val
    omega)

/-! ## The direct computation: `[2048, 64, 8, 8, 8] → [4, 8, 8, 8, 64, 8, 8, 8] → [4, 64, 8, 8, 8, 8, 8, 8] → [4, 64, 64, 64, 64]` -/

/-- Splitting the patch number into `(b, p1, p2, p3)`. -/
theorem splitPatches_apply (x : (⟨5, ![2048, 64, 8, 8, 8]⟩ : Shape).Idx → α)
    (h : (⟨5, ![2048, 64, 8, 8, 8]⟩ : Shape).ShapeCasts ⟨8, ![4, 8, 8, 8, 64, 8, 8, 8]⟩)
    (b : Fin 4) (p1 p2 p3 : Fin 8) (ch : Fin 64) (e1 e2 e3 : Fin 8) :
    shapeCast ⟨8, ![4, 8, 8, 8, 64, 8, 8, 8]⟩ x h (ix8 b p1 p2 p3 ch e1 e2 e3)
      = x (ix5 (⟨((b.val * 8 + p1.val) * 8 + p2.val) * 8 + p3.val, by omega⟩ : Fin 2048) ch e1 e2 e3) :=
  shapeCast_apply x h _ _ (by
    rw [Shape.rowMajor_val_five, rowMajor_val_eight]
    show ((((((b.val * 8 + p1.val) * 8 + p2.val) * 8 + p3.val) * 64 + ch.val) * 8 + e1.val) * 8 + e2.val) * 8 + e3.val
      = ((((((b.val * 8 + p1.val) * 8 + p2.val) * 8 + p3.val) * 64 + ch.val) * 8 + e1.val) * 8 + e2.val) * 8 + e3.val
    rfl)

/-- Interleaving the patch-grid axes with the voxel axes:
    `(b, p1, p2, p3, ch, e1, e2, e3) ↦ (b, ch, p1, e1, p2, e2, p3, e3)`. -/
theorem interleave_apply (x : (⟨8, ![4, 8, 8, 8, 64, 8, 8, 8]⟩ : Shape).Idx → α)
    (h : (⟨8, ![4, 8, 8, 8, 64, 8, 8, 8]⟩ : Shape).Transposes [0, 4, 1, 5, 2, 6, 3, 7] ⟨8, ![4, 64, 8, 8, 8, 8, 8, 8]⟩)
    (b : Fin 4) (ch : Fin 64) (p1 e1 p2 e2 p3 e3 : Fin 8) :
    transpose ⟨8, ![4, 64, 8, 8, 8, 8, 8, 8]⟩ [0, 4, 1, 5, 2, 6, 3, 7] x h (ix8 b ch p1 e1 p2 e2 p3 e3)
      = x (ix8 b p1 p2 p3 ch e1 e2 e3) :=
  transpose_apply _ x h _ _ fun k => match k with
    | ⟨0, _⟩ => rfl | ⟨1, _⟩ => rfl | ⟨2, _⟩ => rfl | ⟨3, _⟩ => rfl
    | ⟨4, _⟩ => rfl | ⟨5, _⟩ => rfl | ⟨6, _⟩ => rfl | ⟨7, _⟩ => rfl

/-- Merging each interleaved pair `(p, e)` into one spatial axis `p·8 + e`. -/
theorem mergePairs_apply (y : (⟨8, ![4, 64, 8, 8, 8, 8, 8, 8]⟩ : Shape).Idx → α)
    (h : (⟨8, ![4, 64, 8, 8, 8, 8, 8, 8]⟩ : Shape).ShapeCasts ⟨5, ![4, 64, 64, 64, 64]⟩)
    (b : Fin 4) (ch : Fin 64) (u v w : Fin 64) :
    shapeCast ⟨5, ![4, 64, 64, 64, 64]⟩ y h (ix5 b ch u v w)
      = y (ix8 b ch (⟨u.val / 8, by omega⟩ : Fin 8) (⟨u.val % 8, by omega⟩ : Fin 8) (⟨v.val / 8, by omega⟩ : Fin 8)
            (⟨v.val % 8, by omega⟩ : Fin 8) (⟨w.val / 8, by omega⟩ : Fin 8) (⟨w.val % 8, by omega⟩ : Fin 8)) :=
  shapeCast_apply y h _ _ (by
    rw [rowMajor_val_eight, Shape.rowMajor_val_five]
    show ((((((b.val * 64 + ch.val) * 8 + u.val / 8) * 8 + u.val % 8) * 8 + v.val / 8) * 8 + v.val % 8) * 8 + w.val / 8) * 8
          + w.val % 8
      = (((b.val * 64 + ch.val) * 64 + u.val) * 64 + v.val) * 64 + w.val
    omega)

end Cert.Fold.Layouts
-- ==== Proof.BlockBody.lean ====
/-
  What the tiled computation's body does to one block.

  A block is 64 consecutive patches (`p2·8 + p3`, for one batch entry `b` and one `p1`), 32 channels, 512 voxels each.
  The body splits rows into `(p2, p3)` and voxels into `(e1, e2, e3)`, moves channels and `e1` to the front while
  interleaving `(p2, e2)` and `(p3, e3)`, and merges `(e2, p3, e3)` into one lane coordinate `L = e2·64 + p3·8 + e3`.
  So the element it stores at `(·, ct, ·, e1, p2, L)` is the loaded element at row `p2·8 + p3`, channel `ct`, voxel
  `e1·64 + e2·8 + e3`, with `e2 = L / 64`, `p3 = (L / 8) mod 8`, `e3 = L mod 8`.
-/
import proofs.«182161_j24824910970985_2_alg».proof.Proof.Gen.KernelIdeal.Skeleton
import proofs.«182161_j24824910970985_2_alg».proof.Proof.Layouts

noncomputable section

namespace Cert.Fold.Block

open Cert.KernelIdeal Cert.KernelIdeal.Gen
open Idealize.ShloMosaic Idealize.ShloMosaic.ValueIdx Cert.Fold

variable {F : FTy → Type} [FloatOps F]

/-- The body's stored value at a block index, as one element of the loaded block. -/
theorem payload_apply (x0 : Vec F S64x32x512 .f32) (u0 : Fin 1) (ct : Fin 32) (u1 : Fin 1) (e1 p2 : Fin 8) (L : Fin 512) :
    k0_pay1 x0 (ix6 u0 ct u1 e1 p2 L)
      = x0 (ix3 (⟨p2.val * 8 + L.val / 8 % 8, by omega⟩ : Fin 64) ct
              (⟨e1.val * 64 + (L.val / 64 * 8 + L.val % 8), by omega⟩ : Fin 512)) := by
  unfold k0_pay1
  dsimp only
  refine (Layouts.mergeLanes_apply _ _ u0 ct u1 e1 p2 L).trans ?_
  refine (Layouts.swapBlock_apply _ _ ct e1 p2 _ _ _).trans ?_
  refine (Layouts.splitBlock_apply _ _ p2 _ ct e1 _ _).trans ?_
  rw [shapeCast_self]

end Cert.Fold.Block

end
-- ==== Proof.FoldSpec.lean ====
/-
  The specification: folding non-overlapping 8×8×8 patches back into a 64×64×64 volume.

  The input holds, for each of 4 batch entries, an 8×8×8 grid of patches; patch `(p1, p2, p3)` of batch entry `b` is
  row `n = ((b·8 + p1)·8 + p2)·8 + p3` of the leading axis, and has 64 channels of 8×8×8 voxels. The fold places voxel
  `(e1, e2, e3)` of that patch at position `(p1·8 + e1, p2·8 + e2, p3·8 + e3)` of the volume. Read backwards: volume
  voxel `(u, v, w)` of channel `ch` in batch entry `b` is voxel `(u mod 8, v mod 8, w mod 8)` of patch
  `(u / 8, v / 8, w / 8)`. Every output element is exactly one input element: there is no arithmetic.

  Also here, the intermediate the tiled computation stages: the same data laid out `[4, 64, 8, 8, 8, 512]`, axes
  `(b, ch, p1, e1, p2, L)` with the lane coordinate `L = e2·64 + p3·8 + e3`, read from the patches with their voxels
  flattened to one axis of 512 (`l = e1·64 + e2·8 + e3`).
-/
import Idealize.ShloMosaic.Lib.ValueIdxRank6

namespace Cert.Fold

open Idealize.ShloMosaic Idealize.ShloMosaic.ValueIdx

/-- The patches: `[2048, 64, 8, 8, 8]`. -/
abbrev Patches : Shape := ⟨5, ![2048, 64, 8, 8, 8]⟩
/-- The folded volume: `[4, 64, 64, 64, 64]`. -/
abbrev Volume : Shape := ⟨5, ![4, 64, 64, 64, 64]⟩
/-- The patches with each patch's voxels on one axis: `[2048, 64, 512]`. -/
abbrev Rows : Shape := ⟨3, ![2048, 64, 512]⟩
/-- The staged layout: `[4, 64, 8, 8, 8, 512]`. -/
abbrev Staged : Shape := ⟨6, ![4, 64, 8, 8, 8, 512]⟩

/-- Where volume voxel `(b, ch, u, v, w)` comes from: patch `(u/8, v/8, w/8)` of batch entry `b`, channel `ch`,
    voxel `(u mod 8, v mod 8, w mod 8)`. -/
def srcIdx (b : Fin 4) (ch : Fin 64) (u v w : Fin 64) : Patches.Idx :=
  ix5 (⟨((b.val * 8 + u.val / 8) * 8 + v.val / 8) * 8 + w.val / 8, by omega⟩ : Fin 2048) ch
    (⟨u.val % 8, by omega⟩ : Fin 8) (⟨v.val % 8, by omega⟩ : Fin 8) (⟨w.val % 8, by omega⟩ : Fin 8)

/-- The fold of the patches `x`, index by index. -/
def fold {α : Type} (x : Patches.Idx → α) : Volume.Idx → α :=
  fun i => x (srcIdx (i 0) (i 1) (i 2) (i 3) (i 4))

theorem fold_apply {α : Type} (x : Patches.Idx → α) (b : Fin 4) (ch : Fin 64) (u v w : Fin 64) :
    fold x (ix5 b ch u v w) = x (srcIdx b ch u v w) := rfl

/-- Where staged element `(b, ch, p1, e1, p2, L)` comes from in the flattened patches: row
    `(b·8 + p1)·64 + p2·8 + p3` with `p3 = (L / 8) mod 8`, channel `ch`, voxel `e1·64 + e2·8 + e3` with
    `e2 = L / 64`, `e3 = L mod 8`. -/
def stagedSrc (b : Fin 4) (ch : Fin 64) (p1 e1 p2 : Fin 8) (L : Fin 512) : Rows.Idx :=
  ix3 (⟨(b.val * 8 + p1.val) * 64 + (p2.val * 8 + L.val / 8 % 8), by omega⟩ : Fin 2048) ch
    (⟨e1.val * 64 + (L.val / 64 * 8 + L.val % 8), by omega⟩ : Fin 512)

/-- The staged array of the flattened patches `A`, index by index. -/
def staged {α : Type} (A : Rows.Idx → α) : Staged.Idx → α :=
  fun j => A (stagedSrc (j 0) (j 1) (j 2) (j 3) (j 4) (j 5))

theorem staged_apply {α : Type} (A : Rows.Idx → α) (b : Fin 4) (ch : Fin 64) (p1 e1 p2 : Fin 8) (L : Fin 512) :
    staged A (ix6 b ch p1 e1 p2 L) = A (stagedSrc b ch p1 e1 p2 L) := rfl

end Cert.Fold
-- ==== Proof.StagedFold.lean ====
/-
  The staged layout, merged, is the fold.

  The tiled computation flattens each patch's voxels to one axis `l = e1·64 + e2·8 + e3`, stages the data as
  `(b, ch, p1, e1, p2, L)` with `L = e2·64 + p3·8 + e3`, and merges `(p1, e1)`, `(p2, ·)` and the lanes into the
  volume's spatial axes. Read backwards from a volume voxel `(b, ch, u, v, w)`: the merge gives `p1 = u / 8`,
  `e1 = u mod 8`, `p2 = v / 8`, `L = (v mod 8)·64 + w`; of that lane, `e2 = L / 64 = v mod 8`,
  `p3 = (L / 8) mod 8 = w / 8`, `e3 = L mod 8 = w mod 8`. So the element is row
  `(b·8 + u/8)·64 + (v/8)·8 + w/8`, voxel `(u mod 8)·64 + (v mod 8)·8 + w mod 8` of the flattened patches, which
  unflattens to the specification's source index. All of it is quotient-and-remainder arithmetic by 8 and 64.
-/
import proofs.«182161_j24824910970985_2_alg».proof.Proof.Layouts
import proofs.«182161_j24824910970985_2_alg».proof.Proof.FoldSpec

namespace Cert.Fold

open Idealize.ShloMosaic Idealize.ShloMosaic.ValueIdx

variable {α : Type}

/-- Flatten the voxels, stage, merge: the fold. -/
theorem merge_staged_flatten (x : Patches.Idx → α) (h1 : Patches.ShapeCasts Rows) (h2 : Staged.ShapeCasts Volume) :
    shapeCast Volume (staged (shapeCast Rows x h1)) h2 = fold x := by
  funext i
  obtain ⟨b, ch, u, v, w, rfl⟩ : ∃ (b : Fin 4) (ch : Fin 64) (u v w : Fin 64), i = ix5 b ch u v w :=
    ⟨i 0, i 1, i 2, i 3, i 4, eq_ix5 i⟩
  rw [fold_apply]
  refine (Layouts.mergeStaged_apply _ h2 b ch u v w).trans ?_
  rw [staged_apply]
  unfold stagedSrc
  refine (Layouts.flattenVoxels_apply x h1 _ ch _).trans ?_
  refine congrArg x ?_
  unfold srcIdx
  funext a
  apply Fin.ext
  match a with
  | ⟨0, _⟩ =>
    show (b.val * 8 + u.val / 8) * 64 + (v.val / 8 * 8 + (v.val % 8 * 64 + w.val) / 8 % 8)
      = ((b.val * 8 + u.val / 8) * 8 + v.val / 8) * 8 + w.val / 8
    omega
  | ⟨1, _⟩ => rfl
  | ⟨2, _⟩ =>
    show (u.val % 8 * 64 + ((v.val % 8 * 64 + w.val) / 64 * 8 + (v.val % 8 * 64 + w.val) % 8)) / 64 = u.val % 8
    omega
  | ⟨3, _⟩ =>
    show (u.val % 8 * 64 + ((v.val % 8 * 64 + w.val) / 64 * 8 + (v.val % 8 * 64 + w.val) % 8)) / 8 % 8 = v.val % 8
    omega
  | ⟨4, _⟩ =>
    show (u.val % 8 * 64 + ((v.val % 8 * 64 + w.val) / 64 * 8 + (v.val % 8 * 64 + w.val) % 8)) % 8 = w.val % 8
    omega

end Cert.Fold
-- ==== Proof.TiledRun.lean ====
/-
  The tiled computation's run, read as a value.

  The grid has 4·8·2 points `(b, p1, k)`. At a point the input block is rows `(b·8 + p1)·64 … + 63` and channels
  `k·32 … + 31` of the flattened patches, and the output block is `[b, k·32 … + 31, p1, :, :, :]` of the staged array. The
  body's stored element at `(·, ct, ·, e1, p2, L)` is the loaded element at row `p2·8 + p3`, channel `ct`, voxel
  `e1·64 + e2·8 + e3` (`e2 = L / 64`, `p3 = (L / 8) mod 8`, `e3 = L mod 8`); adding the two blocks' offsets, that is the
  staged array's defining equation at `(b, k·32 + ct, p1, e1, p2, L)`. The 64 output blocks tile the staged array (block
  indices `(b, k, p1, 0, 0, 0)` range over everything), so the array ends as the staged layout of the flattened patches;
  the reshape before the grid produces those from the argument, the reshape after it merges the staged layout into
  the volume, and the composite is the fold.
-/
import proofs.«182161_j24824910970985_2_alg».proof.Proof.Gen.KernelIdeal.Frame
import proofs.«182161_j24824910970985_2_alg».proof.Proof.BlockBody
import proofs.«182161_j24824910970985_2_alg».proof.Proof.StagedFold
import Idealize.ShloMosaic.Lib.Pipeline.Value
import Idealize.ShloMosaic.Lib.StableHlo.Run
import Idealize.ShloMosaic.Lib.Tactic

set_option maxRecDepth 16384

noncomputable section

namespace Cert.Fold.Tiled

open Cert.KernelIdeal Cert.KernelIdeal.Gen
open Idealize.ShloMosaic Idealize.ShloMosaic.TcCoe Idealize.SL.Sem
open Idealize.ShloMosaic.Pipeline (Dat)
open Idealize.ShloMosaic.ValueIdx Cert.Fold

variable {F : FTy → Type} [FloatOps F]
variable (m : (ℓ : Loc nD τ sig) → Buf (Elt F) ℓ) (ρ : Dev nD → PrngReg)

theorem zeros3 : (![0, 0, 0] : Fin 3 → Nat) = fun _ => 0 := funext fun a => by fin_cases a <;> rfl
theorem zeros6 : (![0, 0, 0, 0, 0, 0] : Fin 6 → Nat) = fun _ => 0 := funext fun a => by fin_cases a <;> rfl

/-! ## The two index maps over the grid -/

/-- At every grid point `(b, p1, k)`: the input block index is `(b·8 + p1, k, 0)` where the output's is
    `(b, k, p1, 0, 0, 0)`, with `b ≤ 3`, `k ≤ 1`, `p1 ≤ 7`. -/
theorem index_relations : ∀ t : Fin cfg0.N,
    win0_0.index t (0 : Fin 3) = win0_1.index t (0 : Fin 6) * 8 + win0_1.index t (2 : Fin 6)
    ∧ win0_0.index t (1 : Fin 3) = win0_1.index t (1 : Fin 6)
    ∧ win0_0.index t (2 : Fin 3) = 0
    ∧ win0_1.index t (0 : Fin 6) ≤ 3 ∧ win0_1.index t (1 : Fin 6) ≤ 1 ∧ win0_1.index t (2 : Fin 6) ≤ 7
    ∧ win0_1.index t (3 : Fin 6) = 0 ∧ win0_1.index t (4 : Fin 6) = 0 ∧ win0_1.index t (5 : Fin 6) = 0 :=
  (by decide +kernel : ∀ t : Fin grid0.N, _)

/-- Every output block index `(b, k, p1, 0, 0, 0)` is some grid point's. -/
theorem index_onto : ∀ (q0 : Fin 4) (q1 : Fin 2) (q2 : Fin 8),
    ∃ t : Fin cfg0.N, win0_1.index t = ![q0.val, q1.val, q2.val, 0, 0, 0] :=
  (by decide +kernel : ∀ (q0 : Fin 4) (q1 : Fin 2) (q2 : Fin 8),
    ∃ t : Fin grid0.N, win0_1.index t = ![q0.val, q1.val, q2.val, 0, 0, 0])

/-! ## What a point writes back -/

/-- The body's stored value at a block index is the staged layout of the flattened patches at the array index under it. -/
theorem stored_eq (c : Dev nD) (t : Fin cfg0.N) (y : S1x32x1x8x8x512.Idx) :
    k0_pay1 (iblk m c 0 t) y = staged (V m c main_v0) (((cfg0.win 1).blk t).view.emb y) := by
  obtain ⟨u0, ct, u1, e1, p2, L, rfl⟩ :
      ∃ (u0 : Fin 1) (ct : Fin 32) (u1 : Fin 1) (e1 p2 : Fin 8) (L : Fin 512), y = ix6 u0 ct u1 e1 p2 L :=
    ⟨y 0, y 1, y 2, y 3, y 4, y 5, eq_ix6 y⟩
  obtain ⟨r0, r1, r2, b0, b1, b2, z3, z4, z5⟩ := index_relations t
  refine (Block.payload_apply (iblk m c 0 t) u0 ct u1 e1 p2 L).trans ?_
  show V m c main_v0 (((cfg0.win 0).blk t).view.emb _) = V m c main_v0 (stagedSrc _ _ _ _ _ _)
  refine congrArg (V m c main_v0) ?_
  unfold stagedSrc
  funext a
  apply Fin.ext
  match a with
  | ⟨0, _⟩ =>
    show win0_0.index t (0 : Fin 3) * 64 + 1 * (p2.val * 8 + L.val / 8 % 8)
      = ((win0_1.index t (0 : Fin 6) * 1 + 1 * u0.val) * 8 + (win0_1.index t (2 : Fin 6) * 1 + 1 * u1.val)) * 64
        + ((win0_1.index t (4 : Fin 6) * 8 + 1 * p2.val) * 8 + (win0_1.index t (5 : Fin 6) * 512 + 1 * L.val) / 8 % 8)
    omega
  | ⟨1, _⟩ =>
    show win0_0.index t (1 : Fin 3) * 32 + 1 * ct.val = win0_1.index t (1 : Fin 6) * 32 + 1 * ct.val
    omega
  | ⟨2, _⟩ =>
    show win0_0.index t (2 : Fin 3) * 512 + 1 * (e1.val * 64 + (L.val / 64 * 8 + L.val % 8))
      = (win0_1.index t (3 : Fin 6) * 8 + 1 * e1.val) * 64
        + ((win0_1.index t (5 : Fin 6) * 512 + 1 * L.val) / 64 * 8 + (win0_1.index t (5 : Fin 6) * 512 + 1 * L.val) % 8)
    omega

/-- What point `t` writes back is block `t` of the staged layout of the flattened patches. -/
theorem flushed_eq (c : Dev nD) (t : Fin cfg0.N) :
    (dats m 0 c).flushed 1 t = ((cfg0.win 1).blk t).view.read (Elt F) (staged (V m c main_v0)) := by
  show (cfg0.win 1).cut (grid0.coords t) ((dats m 0 c).after 1 t) = _
  rw [after0_1]
  unfold out0_1
  rw [View.canon_unit_zero zeros6]
  simp only [View.ld_unit_zero (S := S64x32x512) zeros3]
  funext y
  exact stored_eq m c t y

/-! ## The blocks tile the staged array -/

/-- An index of the staged array is in point `t`'s block iff each coordinate is in the block's range on its axis. -/
theorem mem_block (t : Fin cfg0.N) (i : S4x64x8x8x8x512.Idx) :
    i ∈ ((cfg0.win 1).blk t).view.set ↔ ∀ a : Fin 6, win0_1.index t a * S1x32x1x8x8x512.size a ≤ (i a).val
      ∧ (i a).val < win0_1.index t a * S1x32x1x8x8x512.size a + S1x32x1x8x8x512.size a := by
  show i ∈ ((View.whole main_v1).slice (win0_1.rect t)).set ↔ _
  rw [View.set_slice_whole, Rect.mem_set_unit]
  exact Iff.rfl

/-- Every index of the staged array is in the block of the point `(b, p1, k)` with `b`, `p1` its own and `k` its
    channel's half. -/
theorem covered (i : S4x64x8x8x8x512.Idx) :
    ∃ t : Fin cfg0.N, (cfg0.win 1).flush t = true ∧ i ∈ ((cfg0.win 1).blk t).view.set := by
  have h0 : (i 0).val < 4 := (i 0).isLt
  have h1 : (i 1).val < 64 := (i 1).isLt
  have h2 : (i 2).val < 8 := (i 2).isLt
  have h3 : (i 3).val < 8 := (i 3).isLt
  have h4 : (i 4).val < 8 := (i 4).isLt
  have h5 : (i 5).val < 512 := (i 5).isLt
  obtain ⟨t, ht⟩ := index_onto ⟨(i 0).val, h0⟩ ⟨(i 1).val / 32, by omega⟩ ⟨(i 2).val, h2⟩
  have q0 : win0_1.index t (0 : Fin 6) = (i 0).val := congrFun ht 0
  have q1 : win0_1.index t (1 : Fin 6) = (i 1).val / 32 := congrFun ht 1
  have q2 : win0_1.index t (2 : Fin 6) = (i 2).val := congrFun ht 2
  have q3 : win0_1.index t (3 : Fin 6) = 0 := congrFun ht 3
  have q4 : win0_1.index t (4 : Fin 6) = 0 := congrFun ht 4
  have q5 : win0_1.index t (5 : Fin 6) = 0 := congrFun ht 5
  refine ⟨t, flush0_1 t, ?_⟩
  rw [mem_block]
  intro a
  match a with
  | ⟨0, _⟩ => show win0_1.index t (0 : Fin 6) * 1 ≤ (i 0).val ∧ (i 0).val < win0_1.index t (0 : Fin 6) * 1 + 1; omega
  | ⟨1, _⟩ => show win0_1.index t (1 : Fin 6) * 32 ≤ (i 1).val ∧ (i 1).val < win0_1.index t (1 : Fin 6) * 32 + 32; omega
  | ⟨2, _⟩ => show win0_1.index t (2 : Fin 6) * 1 ≤ (i 2).val ∧ (i 2).val < win0_1.index t (2 : Fin 6) * 1 + 1; omega
  | ⟨3, _⟩ => show win0_1.index t (3 : Fin 6) * 8 ≤ (i 3).val ∧ (i 3).val < win0_1.index t (3 : Fin 6) * 8 + 8; omega
  | ⟨4, _⟩ => show win0_1.index t (4 : Fin 6) * 8 ≤ (i 4).val ∧ (i 4).val < win0_1.index t (4 : Fin 6) * 8 + 8; omega
  | ⟨5, _⟩ => show win0_1.index t (5 : Fin 6) * 512 ≤ (i 5).val ∧ (i 5).val < win0_1.index t (5 : Fin 6) * 512 + 512; omega

/-- So the staged array ends as the staged layout of the flattened patches. -/
theorem staged_final (c : Dev nD) : (dats m 0 c).arrAt 1 cfg0.N = staged (V m c main_v0) :=
  (dats m 0 c).arrAt_eq_of_cover 1 (staged (V m c main_v0)) (fun t _ => flushed_eq m c t) covered

/-! ## The reshapes around the grid -/

/-- The grid finds the flattened patches: the argument, reshaped. -/
theorem entry_rows (c : Dev nD) :
    (V m c main_v0 : S2048x64x512.Idx → Elt F .f32)
      = shapeCast S2048x64x512 (m ((c : Thread nD τ).loc main_arg0)) Facts₀.shapeCasts_S2048x64x8x8x8_S2048x64x512 := by
  show StableHlo.after hostOps0 (fun b => m (c, b)) (Proc.devRef .tc main_v0) = _
  after_results
  rfl

/-- The result is the staged array after the grid, reshaped. -/
theorem result_reshaped (c : Dev nD) :
    Pipeline.afterTail₀ cfgs (dats m) 0 (V0 m) [hostOps1] c main_v2
      = shapeCast S4x64x64x64x64 ((dats m 0 c).arrAt 1 cfg0.N) Facts₀.shapeCasts_S4x64x8x8x8x512_S4x64x64x64x64 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 1 cfg0.N := Pipeline.withArrays_arr spec0 launch0.win.arr_inj c _ _ 1
  rw [e]
  rfl

/-- The result is the fold of the argument. -/
theorem result_eq (c : Dev nD) :
    Pipeline.afterTail₀ cfgs (dats m) 0 (V0 m) [hostOps1] c main_v2 = fold (m ((c : Thread nD τ).loc main_arg0)) := by
  rw [result_reshaped, staged_final, entry_rows]
  exact merge_staged_flatten _ _ _

/-! ## The run -/

/-- Every weakly fair execution terminates with the result at the fold of the argument, the argument unchanged. -/
theorem run : θ_run defs (onTc (τ := τ) (main (F := F))) ⟨m, fun _ => 0, ρ⟩ fun r => ∀ c : Dev nD,
      r.2.mem ((c : Thread nD τ).loc main_v2) = fold (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.Fold.Tiled

end
-- ==== Proof.DirectFold.lean ====
/-
  The direct computation is the fold.

  The reference splits the patch number into `(b, p1, p2, p3)`, interleaves the patch-grid axes with the voxel axes
  to `(b, ch, p1, e1, p2, e2, p3, e3)`, and merges each pair `(p, e)` into one spatial coordinate `p·8 + e`. Read
  backwards from a volume voxel `(b, ch, u, v, w)`: the last reshape takes `u` to `(u / 8, u mod 8)` and likewise `v`,
  `w`; the transpose reorders; the first reshape puts `(b, u/8, v/8, w/8)` back into one patch number. That is the
  specification's source index, coordinate for coordinate.
-/
import proofs.«182161_j24824910970985_2_alg».proof.Proof.Gen.ReferenceIdeal.Read
import proofs.«182161_j24824910970985_2_alg».proof.Proof.Layouts
import proofs.«182161_j24824910970985_2_alg».proof.Proof.FoldSpec

noncomputable section

namespace Cert.Fold.Direct

open Cert.ReferenceIdeal Cert.ReferenceIdeal.Read
open Idealize.ShloMosaic Idealize.ShloMosaic.ValueIdx Cert.Lib.Rank8 Cert.Fold

variable {F : FTy → Type} [FloatOps F]

/-- The reference's result, as a function of its argument, is the fold. -/
theorem val_eq_fold (x : (⟨S2048x64x8x8x8, .f32⟩ : BufTy).Contents (Elt F)) :
    val_main_v2 (F := F) x = fold x := by
  funext i
  obtain ⟨b, ch, u, v, w, rfl⟩ : ∃ (b : Fin 4) (ch : Fin 64) (u v w : Fin 64), i = ix5 b ch u v w :=
    ⟨i 0, i 1, i 2, i 3, i 4, eq_ix5 i⟩
  rw [fold_apply]
  unfold val_main_v2
  refine (Layouts.mergePairs_apply _ _ b ch u v w).trans ?_
  unfold val_main_v1
  refine (Layouts.interleave_apply _ _ b ch _ _ _ _ _ _).trans ?_
  unfold val_main_v0
  exact Layouts.splitPatches_apply _ _ b _ _ _ ch _ _ _

end Cert.Fold.Direct

end
-- ==== Proof.FoldClaims.lean ====
/-
  The five claims.

  Both idealized programs end with the result at the fold of the argument — the tiled one by reading its run block
  by block, the direct one by reading its three operations at an index — so from memories that agree on the argument
  they end with equal results. The fold only moves elements, so nothing is asked of the values: the precondition is
  never opened. The frames are the generated ones (the direct program's is its run with the result dropped), and the
  idealization rewrote no operation, so there is nothing to preserve.
-/
import proofs.«182161_j24824910970985_2_alg».proof.Defs
import proofs.«182161_j24824910970985_2_alg».proof.Proof.Gen.Kernel.Frame
import proofs.«182161_j24824910970985_2_alg».proof.Proof.Gen.KernelIdeal.Frame
import proofs.«182161_j24824910970985_2_alg».proof.Proof.Gen.ReferenceIdeal.Run
import proofs.«182161_j24824910970985_2_alg».proof.Proof.Gen.ReferenceIdeal.Read
import proofs.«182161_j24824910970985_2_alg».proof.Proof.Gen.Pre_finite_inputs
import proofs.«182161_j24824910970985_2_alg».proof.Proof.TiledRun
import proofs.«182161_j24824910970985_2_alg».proof.Proof.DirectFold

noncomputable section

namespace Cert.Proof.FoldClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the fold of the (agreeing) arguments. -/
theorem algebraic : Cert.algebraic_KernelIdeal_ReferenceIdeal := by
  intro m ρ m' ρ' _ hagree
  refine ⟨fun c => Cert.Fold.fold (m ((c : Thread Cert.KernelIdeal.nD Cert.KernelIdeal.τ).loc Cert.KernelIdeal.main_arg0)),
    Cert.Fold.Tiled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.Fold.Direct.val_eq_fold, hagree c]

end Cert.Proof.FoldClaims

end
-- ==== Proof.lean ====
/-
  Folding 8×8×8 patches into a 64×64×64 volume, tiled over a 4·8·2 grid with the data staged lane-dense, against the
  direct reshape–transpose–reshape: both are the same rearrangement of the argument's elements, index by index
  (Proof/FoldSpec.lean states it; Proof/TiledRun.lean and Proof/DirectFold.lean show each program computes it;
  Proof/FoldClaims.lean draws the five claims). Assembled here behind the witnesses of the programs' stated facts.
-/
import proofs.«182161_j24824910970985_2_alg».proof.Defs
import proofs.«182161_j24824910970985_2_alg».proof.Proof.Gen.Kernel
import proofs.«182161_j24824910970985_2_alg».proof.Proof.Gen.Kernel.Skeleton
import proofs.«182161_j24824910970985_2_alg».proof.Proof.Gen.Kernel.Launch
import proofs.«182161_j24824910970985_2_alg».proof.Proof.Gen.Kernel.Points
import proofs.«182161_j24824910970985_2_alg».proof.Proof.Gen.Kernel.Frame
import proofs.«182161_j24824910970985_2_alg».proof.Proof.Gen.KernelIdeal
import proofs.«182161_j24824910970985_2_alg».proof.Proof.Gen.KernelIdeal.Skeleton
import proofs.«182161_j24824910970985_2_alg».proof.Proof.Gen.KernelIdeal.Launch
import proofs.«182161_j24824910970985_2_alg».proof.Proof.Gen.KernelIdeal.Points
import proofs.«182161_j24824910970985_2_alg».proof.Proof.Gen.KernelIdeal.Frame
import proofs.«182161_j24824910970985_2_alg».proof.Proof.Gen.ReferenceIdeal
import proofs.«182161_j24824910970985_2_alg».proof.Proof.Gen.Pre_finite_inputs
import proofs.«182161_j24824910970985_2_alg».proof.Proof.Gen.ReferenceIdeal.Run
import proofs.«182161_j24824910970985_2_alg».proof.Proof.Gen.ReferenceIdeal.Read
import proofs.«182161_j24824910970985_2_alg».proof.Proof.FoldClaims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    FoldClaims.frame_k, FoldClaims.frame_ki, FoldClaims.frame_ri, FoldClaims.preserves, FoldClaims.algebraic⟩

end Cert.Proof

end
